-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S16777216x2 : Shape := ⟨2, ![16777216, 2]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel
  bcast_S_S16777216x2 : S_.BroadcastsInDim S16777216x2 (![] : Fin 0 → Fin S16777216x2.rank)
  reducesTo_S16777216x2_S_d0_1 : S16777216x2.ReducesTo [0, 1] S_

variable [Facts]

def fn {F : FTy → Type} [FloatOps F] (main_arg0 : FVec F S16777216x1 .f32) (main_arg1 : FVec F S16777216x2 .f32) : IVec S_ 1 :=
  let main_v0 : FVec F S16777216x1 .f32 := Host.absf main_arg0
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  let main_v4 : FVec F S16777216x2 .f32 := Host.absf main_arg1
  let main_cst_0 : FVec F S_ .f32 := constant S_ .f32 0x7F800000#32
  let main_v5 : FVec F S16777216x2 .f32 := broadcastInDim S16777216x2 ![] bcast_S_S16777216x2 main_cst_0
  let main_v6 : IVec S16777216x2 1 := cmpf .olt main_v4 main_v5
  let main_c_1 : IVec S_ 1 := constantI S_ 1 1#1
  let main_v7 : IVec S_ 1 := (fun x v => Host.reduce IntOp.andi x v reducesTo_S16777216x2_S_d0_1 h_S_) main_v6 main_c_1
  let main_v8 : IVec S_ 1 := andi main_v3 main_v7
  main_v8
-- ==== Kernel.lean ====
abbrev S16777216x1 : Shape := ⟨2, ![16777216, 1]⟩
abbrev S16777216x2 : Shape := ⟨2, ![16777216, 2]⟩
abbrev S16777216 : Shape := ⟨1, ![16777216]⟩
abbrev S262144x64 : Shape := ⟨2, ![262144, 64]⟩
abbrev S33554432 : Shape := ⟨1, ![33554432]⟩
abbrev S262144x128 : Shape := ⟨2, ![262144, 128]⟩
abbrev S8192x64 : Shape := ⟨2, ![8192, 64]⟩
abbrev S8192x128 : Shape := ⟨2, ![8192, 128]⟩
abbrev S128x64 : Shape := ⟨2, ![128, 64]⟩

abbrev nBuf : Space → Nat
  | .hbm => 9
  | .vmem => 6
  | .smem => 0
  | _ => 0

abbrev bufTy : (tb : Table) → Fin (tcTables nBuf tb) → BufTy
  | .hbm, ⟨0, _⟩ => ⟨S16777216x1, .f32⟩
  | .hbm, ⟨1, _⟩ => ⟨S16777216x2, .f32⟩
  | .hbm, ⟨2, _⟩ => ⟨S16777216, .f32⟩
  | .hbm, ⟨3, _⟩ => ⟨S262144x64, .f32⟩
  | .hbm, ⟨4, _⟩ => ⟨S33554432, .f32⟩
  | .hbm, ⟨5, _⟩ => ⟨S262144x128, .f32⟩
  | .hbm, ⟨6, _⟩ => ⟨S262144x64, .f32⟩
  | .hbm, ⟨7, _⟩ => ⟨S16777216, .f32⟩
  | .hbm, ⟨8, _⟩ => ⟨S16777216x1, .f32⟩
  | .local _ .vmem, ⟨0, _⟩ => ⟨S8192x64, .f32⟩
  | .local _ .vmem, ⟨1, _⟩ => ⟨S8192x64, .f32⟩
  | .local _ .vmem, ⟨2, _⟩ => ⟨S8192x128, .f32⟩
  | .local _ .vmem, ⟨3, _⟩ => ⟨S8192x128, .f32⟩
  | .local _ .vmem, ⟨4, _⟩ => ⟨S8192x64, .f32⟩
  | .local _ .vmem, ⟨5, _⟩ => ⟨S8192x64, .f32⟩
  | _, _ => ⟨S16777216x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16777216x1_S16777216 : S16777216x1.ShapeCasts S16777216
  shapeCasts_S16777216_S262144x64 : S16777216.ShapeCasts S262144x64
  shapeCasts_S16777216x2_S33554432 : S16777216x2.ShapeCasts S33554432
  shapeCasts_S33554432_S262144x128 : S33554432.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  iota_S128x64_d0_w32 : S128x64.Iotas .tc 32 [0]
  iota_S128x64_d1_w32 : S128x64.Iotas .tc 32 [1]
  natLt_1_32 : 1 < 32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  shapeCasts_S262144x64_S16777216 : S262144x64.ShapeCasts S16777216
  shapeCasts_S16777216_S16777216x1 : S16777216.ShapeCasts S16777216x1
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S262144x64.size a
  hwx0_2 : ∀ i : grid0.Coords, EltTy.bits .f32 = 32 ∨ (Rect.block (s := S262144x64) S8192x64.size (cc0_transform_2 i) (hinb0_2 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_v1) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216x1 : Shape := ⟨2, ![16777216, 1]⟩
abbrev S16777216x2 : Shape := ⟨2, ![16777216, 2]⟩

abbrev nBuf : Space → Nat
  | .hbm => 6
  | .vmem => 0
  | .smem => 0
  | _ => 0

abbrev bufTy : (tb : Table) → Fin (tcTables nBuf tb) → BufTy
  | .hbm, ⟨0, _⟩ => ⟨S16777216x1, .f32⟩
  | .hbm, ⟨1, _⟩ => ⟨S16777216x2, .f32⟩
  | .hbm, ⟨2, _⟩ => ⟨S16777216x1, .f32⟩
  | .hbm, ⟨3, _⟩ => ⟨S16777216x1, .f32⟩
  | .hbm, ⟨4, _⟩ => ⟨S16777216x1, .f32⟩
  | .hbm, ⟨5, _⟩ => ⟨S16777216x1, .f32⟩
  | _, _ => ⟨S16777216x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  slices_S16777216x2_S16777216x1_0_0 : S16777216x2.Slices ![0, 0] S16777216x1
  slices_S16777216x2_S16777216x1_0_1 : S16777216x2.Slices ![0, 1] S16777216x1

variable [Facts₀]

class Facts : Prop extends Facts₀ where

variable [Facts]
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibSelectColumn.lean ====
/-
  A column of zeros with a single one picks one entry of a row.

  Over the extended reals `x * 0 = 0` for EVERY `x`, the two infinities included, and `x * 1 = x`. So the sum
  `∑ k, x k * e k`, with `e` zero everywhere but at one position `k₀` where it is one, has a single surviving
  term, `x k₀`: the product of a row with a 0/1 selection column copies the selected entry exactly, whatever the
  row holds (no finiteness is asked of `x`).

  The indicator as a kernel builds it from integer words: the one-bit answer of an equality test, widened with
  zeros to 32 bits and converted to a float as a signed integer, is `1` where the two words are equal and `0`
  elsewhere. And the two words a de-interleaving kernel compares — a row position `k` against twice a column
  position `q`, or twice it plus one — are equal exactly when the naturals are, as long as nothing wraps.
-/
import Idealize.ShloMosaic.PureOps.Ideal
import Idealize.ShloMosaic.Lib.ValueIdx

noncomputable section

open scoped BigOperators
open Idealize.ShloMosaic

namespace SelectColumn

/-- A row times a column that is one at `k₀` and zero elsewhere is the row's entry at `k₀`. -/
theorem sum_mul_indicator {K : ℕ} (x e : Fin K → EReal) (k₀ : Fin K)
    (h1 : e k₀ = 1) (h0 : ∀ k, k ≠ k₀ → e k = 0) : ∑ k, x k * e k = x k₀ := by
  rw [Finset.sum_eq_single k₀]
  · rw [h1, mul_one]
  · intro k _ hk
    rw [h0 k hk, mul_zero]
  · intro h
    exact absurd (Finset.mem_univ _) h

/-- The equality test of two words, widened to 32 bits and read as a signed integer, is one or zero. -/
theorem indicator_word (a b : BitVec 32) :
    FloatOps.sitofp (F := Ideal) .f32 ((IntOp.cmpi .eq a b).setWidth 32) = if a = b then (1 : EReal) else 0 := by
  show (((((BitVec.ofBool (a == b)).setWidth 32).toInt : ℤ) : ℝ) : EReal) = _
  by_cases h : a = b
  · have hb : (a == b) = true := by simpa using h
    have e1 : ((BitVec.ofBool true).setWidth 32).toInt = 1 := by decide
    rw [hb, if_pos h, e1]
    simp
  · have hb : (a == b) = false := by simpa using h
    have e0 : ((BitVec.ofBool false).setWidth 32).toInt = 0 := by decide
    rw [hb, if_neg h, e0]
    simp

/-- Position `k` of 128 is twice position `q` of 64, as 32-bit words, exactly when `k = 2 q`. -/
theorem word_even (k q : ℕ) (hk : k < 128) (hq : q < 64) :
    BitVec.ofNat 32 k = IntOp.muli 2#32 (BitVec.ofNat 32 q) ↔ k = 2 * q := by
  unfold IntOp.muli
  rw [← BitVec.toNat_inj, BitVec.toNat_mul, BitVec.toNat_ofNat, BitVec.toNat_ofNat, BitVec.toNat_ofNat]
  have e : (2 : ℕ) ^ 32 = 4294967296 := by norm_num
  rw [e]
  omega

/-- Position `k` of 128 is twice position `q` of 64 plus one, as 32-bit words, exactly when `k = 2 q + 1`. -/
theorem word_odd (k q : ℕ) (hk : k < 128) (hq : q < 64) :
    BitVec.ofNat 32 k = IntOp.addi (IntOp.muli 2#32 (BitVec.ofNat 32 q)) 1#32 ↔ k = 2 * q + 1 := by
  unfold IntOp.addi IntOp.muli
  rw [← BitVec.toNat_inj, BitVec.toNat_add, BitVec.toNat_mul, BitVec.toNat_ofNat, BitVec.toNat_ofNat,
    BitVec.toNat_ofNat, BitVec.toNat_ofNat]
  have e : (2 : ℕ) ^ 32 = 4294967296 := by norm_num
  rw [e]
  omega

end SelectColumn

end
-- ==== Proof.ClipBody.lean ====
/-
  What the clip kernel's body computes at one entry of its output block.

  The body holds a block of 8192 rows. A row of the bounds block has 128 entries, the lower and upper bound of 64
  consecutive elements interleaved: entry `2 q` is the lower bound of element `q`, entry `2 q + 1` its upper
  bound. The body separates them by two products with constant 128 × 64 matrices of zeros and ones — the "even"
  matrix is one exactly at the positions `(2 q, q)`, the "odd" matrix exactly at `(2 q + 1, q)` — and then clips:
  `min upper (max lower y)`.

  Over the extended reals each product's entry `(p, q)` is a sum with one surviving term, so the body's result at
  `(p, q)` is `min (b (p, 2 q + 1)) (max (b (p, 2 q)) (y (p, q)))` for ANY bounds block `b` and value block `y`.
-/
import proofs.«122648_j40226663694894_1_alg».proof.Proof.Gen.KernelIdeal.Skeleton
import proofs.«122648_j40226663694894_1_alg».proof.Proof.LibMatmul
import proofs.«122648_j40226663694894_1_alg».proof.Proof.LibSelectColumn
import Idealize.ShloMosaic.Lib.Pipeline.Value
import Idealize.ShloMosaic.Lib.ValueIdx

noncomputable section

open scoped BigOperators
open Idealize.ShloMosaic Idealize.ShloMosaic.ValueIdx

namespace Cert.KernelIdeal.ClipBody

open Cert.KernelIdeal Cert.KernelIdeal.Gen

/-- The position of element `q`'s lower bound in a row of the bounds block. -/
def lowerPos (q : Fin 64) : Fin 128 := ⟨2 * q.val, by have := q.isLt; omega⟩
/-- The position of element `q`'s upper bound in a row of the bounds block. -/
def upperPos (q : Fin 64) : Fin 128 := ⟨2 * q.val + 1, by have := q.isLt; omega⟩

/-- The body's two products are plain ones: rows by columns, one contracted axis, no batch axis. -/
theorem isPlain : PlainMatmul.IsPlain (M := 8192) (K := 128) (N := 64) dot_S8192x128_S128x64_S8192x64_1_0_0_1_n_n :=
  ⟨rfl, rfl, rfl, rfl, rfl, rfl⟩

/-- The "even" matrix, as the body builds it from the two position counters: the test `row = 2 · column`. -/
def evenSel : FVec Ideal S128x64 .f32 :=
  sitofp .f32 (extui 32 (cmpi .eq (iota .tc S128x64 32 [0] iota_S128x64_d0_w32)
    (muli (broadcast S128x64 2#32) (iota .tc S128x64 32 [1] iota_S128x64_d1_w32))) natLt_1_32)

/-- The "odd" matrix: the test `row = 2 · column + 1`. -/
def oddSel : FVec Ideal S128x64 .f32 :=
  sitofp .f32 (extui 32 (cmpi .eq (iota .tc S128x64 32 [0] iota_S128x64_d0_w32)
    (addi (muli (broadcast S128x64 2#32) (iota .tc S128x64 32 [1] iota_S128x64_d1_w32)) (broadcast S128x64 1#32)))
    natLt_1_32)

/-- The "even" matrix is one at `(2 q, q)` and zero elsewhere. -/
theorem even_apply (k : Fin 128) (q : Fin 64) :
    evenSel (ix2 k q) = if k.val = 2 * q.val then (1 : EReal) else 0 := by
  show FloatOps.sitofp (F := Ideal) .f32 ((IntOp.cmpi .eq (iota .tc S128x64 32 [0] iota_S128x64_d0_w32 (ix2 k q))
    (IntOp.muli 2#32 (iota .tc S128x64 32 [1] iota_S128x64_d1_w32 (ix2 k q)))).setWidth 32) = _
  rw [iota_single_apply, iota_single_apply, SelectColumn.indicator_word]
  exact if_congr (SelectColumn.word_even k.val q.val k.isLt q.isLt) rfl rfl

/-- The "odd" matrix is one at `(2 q + 1, q)` and zero elsewhere. -/
theorem odd_apply (k : Fin 128) (q : Fin 64) :
    oddSel (ix2 k q) = if k.val = 2 * q.val + 1 then (1 : EReal) else 0 := by
  show FloatOps.sitofp (F := Ideal) .f32 ((IntOp.cmpi .eq (iota .tc S128x64 32 [0] iota_S128x64_d0_w32 (ix2 k q))
    (IntOp.addi (IntOp.muli 2#32 (iota .tc S128x64 32 [1] iota_S128x64_d1_w32 (ix2 k q))) 1#32)).setWidth 32) = _
  rw [iota_single_apply, iota_single_apply, SelectColumn.indicator_word]
  exact if_congr (SelectColumn.word_odd k.val q.val k.isLt q.isLt) rfl rfl

/-- A block of rows times a 0/1 matrix whose column `q` is one at `k₀` only: the entry `(p, q)` of the product is
    the block's entry `(p, k₀)`. -/
theorem select_apply (x : FVec Ideal S8192x128 .f32) (e : FVec Ideal S128x64 .f32) (p : Fin 8192) (q : Fin 64)
    (k₀ : Fin 128) (h1 : e (ix2 k₀ q) = 1) (h0 : ∀ k, k ≠ k₀ → e (ix2 k q) = 0) :
    matmul dot_S8192x128_S128x64_S8192x64_1_0_0_1_n_n none x e (constant S8192x64 .f32 0x00000000#32) (ix2 p q)
      = x (ix2 p k₀) :=
  (PlainMatmul.apply isPlain none x e p q).trans
    (SelectColumn.sum_mul_indicator (fun k => x (ix2 p k)) (fun k => e (ix2 k q)) k₀ h1 h0)

/-- The lower bounds of a block: the product with the "even" matrix reads entry `2 q` of the row. -/
theorem lower_apply (b : FVec Ideal S8192x128 .f32) (p : Fin 8192) (q : Fin 64) :
    matmul dot_S8192x128_S128x64_S8192x64_1_0_0_1_n_n none b evenSel (constant S8192x64 .f32 0x00000000#32) (ix2 p q)
      = b (ix2 p (lowerPos q)) :=
  select_apply b evenSel p q (lowerPos q) (by rw [even_apply]; exact if_pos rfl)
    (fun k hk => by rw [even_apply]; exact if_neg fun h => hk (Fin.ext h))

/-- The upper bounds of a block: the product with the "odd" matrix reads entry `2 q + 1` of the row. -/
theorem upper_apply (b : FVec Ideal S8192x128 .f32) (p : Fin 8192) (q : Fin 64) :
    matmul dot_S8192x128_S128x64_S8192x64_1_0_0_1_n_n none b oddSel (constant S8192x64 .f32 0x00000000#32) (ix2 p q)
      = b (ix2 p (upperPos q)) :=
  select_apply b oddSel p q (upperPos q) (by rw [odd_apply]; exact if_pos rfl)
    (fun k hk => by rw [odd_apply]; exact if_neg fun h => hk (Fin.ext h))

/-- The body's stored value is the clip of the value block between the two products. -/
theorem payload_eq (b : FVec Ideal S8192x128 .f32) (y : FVec Ideal S8192x64 .f32) :
    k0_pay1 (F := Ideal) b y
      = minimumf (matmul dot_S8192x128_S128x64_S8192x64_1_0_0_1_n_n none b oddSel (constant S8192x64 .f32 0x00000000#32))
          (maximumf (matmul dot_S8192x128_S128x64_S8192x64_1_0_0_1_n_n none b evenSel (constant S8192x64 .f32 0x00000000#32)) y) := by
  unfold k0_pay1 evenSel oddSel
  dsimp only
  rw [shapeCast_self, shapeCast_self]

/-- THE BODY AT AN ENTRY: the value clipped between its row's two bounds. -/
theorem payload_apply (b : FVec Ideal S8192x128 .f32) (y : FVec Ideal S8192x64 .f32) (p : Fin 8192) (q : Fin 64) :
    k0_pay1 (F := Ideal) b y (ix2 p q)
      = min (b (ix2 p (upperPos q))) (max (b (ix2 p (lowerPos q))) (y (ix2 p q))) := by
  rw [payload_eq, minimumf_apply, maximumf_apply, upper_apply, lower_apply]

end Cert.KernelIdeal.ClipBody

end
-- ==== Proof.ClipBlocks.lean ====
/-
  From the body's blocks to the whole packed array.

  The region works on three packed arrays: the values `Y` as 262144 rows of 64, the bounds `B` as 262144 rows of
  128 (row `r` holds the lower and upper bounds of the 64 elements of row `r` of `Y`, interleaved), and the output,
  262144 rows of 64. The grid has 32 points; point `t` takes rows `8192 t … 8192 t + 8191` of all three.

  The whole-array function: entry `(r, q)` of the output is `Y (r, q)` clipped between `B (r, 2 q)` and
  `B (r, 2 q + 1)`. What point `t` writes back is block `t` of that one function — the body's entry `(p, q)`
  (ClipBody) read at row `8192 t + p` of the arrays —, the 32 blocks cover the output, so after the run the output
  array IS that function of the two input arrays as the region found them.
-/
import proofs.«122648_j40226663694894_1_alg».proof.Proof.Gen.KernelIdeal.Frame
import proofs.«122648_j40226663694894_1_alg».proof.Proof.ClipBody
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.ClipBlocks

open Cert.KernelIdeal Cert.KernelIdeal.Gen Cert.KernelIdeal.ClipBody

variable (m : (ℓ : Loc nD τ sig) → Buf (Elt Ideal) ℓ) (ρ : Dev nD → PrngReg)

theorem hz : (![0, 0] : Fin 2 → Nat) = fun _ => 0 := funext fun a => by fin_cases a <;> rfl

/-! ## The whole-array function -/

/-- Entry `(r, q)` of the packed result: the value clipped between its two bounds. -/
def clipAt (y : S262144x64.Idx → EReal) (b : S262144x128.Idx → EReal) (r : Fin 262144) (q : Fin 64) : EReal :=
  min (b (ix2 r (upperPos q))) (max (b (ix2 r (lowerPos q))) (y (ix2 r q)))

/-- The packed result as one function of the packed values and the packed bounds. -/
def packedClip (y : S262144x64.Idx → EReal) (b : S262144x128.Idx → EReal) : S262144x64.Idx → EReal :=
  fun i => clipAt y b (i 0) (i 1)

theorem packedClip_apply (y : S262144x64.Idx → EReal) (b : S262144x128.Idx → EReal) (r : Fin 262144) (q : Fin 64) :
    packedClip y b (ix2 r q) = min (b (ix2 r (upperPos q))) (max (b (ix2 r (lowerPos q))) (y (ix2 r q))) := rfl

/-! ## The windows' blocks -/

/-- The three windows move together: at every point the two inputs' row-block index is the output's, the column-block
    index is zero, and the output's row-block index is below 32. -/
theorem idx_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 31 :=
  (by decide +kernel : ∀ t : Fin grid0.N, _)

/-- Every one of the 32 row blocks is some point's. -/
theorem idx_onto : ∀ q0 : Fin 32, ∃ t : Fin cfg0.N, win0_2.index t = ![q0.val, 0] :=
  (by decide +kernel : ∀ q0 : Fin 32, ∃ t : Fin grid0.N, win0_2.index t = ![q0.val, 0])

/-- The value window's block at point `t`, at `x`, is the packed values at the array index `k` with the same
    position: row `8192 · (block index) + x's row`, the same column. -/
theorem read_y (c : Dev nD) (t : Fin cfg0.N) (x : S8192x64.Idx) (k : S262144x64.Idx)
    (h0 : (k 0).val = win0_0.index t (0 : Fin 2) * 8192 + (x 0).val)
    (h1 : (k 1).val = win0_0.index t (1 : Fin 2) * 64 + (x 1).val) :
    (iblk m c 0 t : Vec Ideal S8192x64 .f32) x = (V m c main_v1 : S262144x64.Idx → EReal) k := by
  have e : ((cfg0.win 0).blk t).view.emb x = k := by
    funext a; apply Fin.ext
    match a with
    | ⟨0, _⟩ => show win0_0.index t (0 : Fin 2) * 8192 + 1 * (x 0).val = (k 0).val; omega
    | ⟨1, _⟩ => show win0_0.index t (1 : Fin 2) * 64 + 1 * (x 1).val = (k 1).val; omega
  show V m c main_v1 (((cfg0.win 0).blk t).view.emb x) = V m c main_v1 k
  rw [e]

/-- The bounds window's block at point `t`, at `x`, is the packed bounds at the array index with the same position. -/
theorem read_b (c : Dev nD) (t : Fin cfg0.N) (x : S8192x128.Idx) (k : S262144x128.Idx)
    (h0 : (k 0).val = win0_1.index t (0 : Fin 2) * 8192 + (x 0).val)
    (h1 : (k 1).val = win0_1.index t (1 : Fin 2) * 128 + (x 1).val) :
    (iblk m c 1 t : Vec Ideal S8192x128 .f32) x = (V m c main_v3 : S262144x128.Idx → EReal) k := by
  have e : ((cfg0.win 1).blk t).view.emb x = k := by
    funext a; apply Fin.ext
    match a with
    | ⟨0, _⟩ => show win0_1.index t (0 : Fin 2) * 8192 + 1 * (x 0).val = (k 0).val; omega
    | ⟨1, _⟩ => show win0_1.index t (1 : Fin 2) * 128 + 1 * (x 1).val = (k 1).val; omega
  show V m c main_v3 (((cfg0.win 1).blk t).view.emb x) = V m c main_v3 k
  rw [e]

/-- Where entry `x` of the output's block at point `t` sits in the output array. -/
theorem emb_out (t : Fin cfg0.N) (x : S8192x64.Idx) (k : S262144x64.Idx)
    (h0 : (k 0).val = win0_2.index t (0 : Fin 2) * 8192 + (x 0).val)
    (h1 : (k 1).val = win0_2.index t (1 : Fin 2) * 64 + (x 1).val) :
    ((cfg0.win 2).blk t).view.emb x = k := by
  funext a; apply Fin.ext
  match a with
  | ⟨0, _⟩ => show win0_2.index t (0 : Fin 2) * 8192 + 1 * (x 0).val = (k 0).val; omega
  | ⟨1, _⟩ => show win0_2.index t (1 : Fin 2) * 64 + 1 * (x 1).val = (k 1).val; omega

/-! ## What a point writes back -/

/-- The body's result at entry `j` of point `t`'s block is the whole-array function at that entry's place in the
    output array. -/
theorem block_eq (c : Dev nD) (t : Fin cfg0.N) (j : S8192x64.Idx) :
    k0_pay1 (F := Ideal) (iblk m c 1 t) (iblk m c 0 t) j
      = packedClip (V m c main_v1) (V m c main_v3) (((cfg0.win 2).blk t).view.emb j) := by
  obtain ⟨e0, e1, e2, e3, e4, e5⟩ := idx_facts t
  obtain ⟨p, q, rfl⟩ : ∃ (p : Fin 8192) (q : Fin 64), j = ix2 p q := ⟨j 0, j 1, eq_ix2 j⟩
  have hp : p.val < 8192 := p.isLt
  have hr : win0_2.index t (0 : Fin 2) * 8192 + p.val < 262144 := by omega
  refine (payload_apply (iblk m c 1 t) (iblk m c 0 t) p q).trans ?_
  rw [read_b m c t (ix2 p (upperPos q)) (ix2 ⟨_, hr⟩ (upperPos q))
        (by show win0_2.index t (0 : Fin 2) * 8192 + p.val = win0_1.index t (0 : Fin 2) * 8192 + p.val; omega)
        (by show (upperPos q).val = win0_1.index t (1 : Fin 2) * 128 + (upperPos q).val; omega),
    read_b m c t (ix2 p (lowerPos q)) (ix2 ⟨_, hr⟩ (lowerPos q))
        (by show win0_2.index t (0 : Fin 2) * 8192 + p.val = win0_1.index t (0 : Fin 2) * 8192 + p.val; omega)
        (by show (lowerPos q).val = win0_1.index t (1 : Fin 2) * 128 + (lowerPos q).val; omega),
    read_y m c t (ix2 p q) (ix2 ⟨_, hr⟩ q)
        (by show win0_2.index t (0 : Fin 2) * 8192 + p.val = win0_0.index t (0 : Fin 2) * 8192 + p.val; omega)
        (by show q.val = win0_0.index t (1 : Fin 2) * 64 + q.val; omega),
    emb_out t (ix2 p q) (ix2 ⟨_, hr⟩ q) rfl
        (by show q.val = win0_2.index t (1 : Fin 2) * 64 + q.val; omega)]
  exact (packedClip_apply _ _ _ q).symm

/-- WHAT POINT `t` WRITES BACK is block `t` of the whole-array function of the two packed input arrays. -/
theorem flushed_eq (c : Dev nD) (t : Fin cfg0.N) :
    (dats m 0 c).flushed 2 t
      = ((cfg0.win 2).blk t).view.read (Elt Ideal) (packedClip (V m c main_v1) (V m c main_v3)) := by
  show (cfg0.win 2).cut (grid0.coords t) ((dats m 0 c).after 2 t) = _
  rw [after0_2]
  unfold out0_2
  rw [View.canon_unit_zero hz]
  simp only [View.ld_unit_zero (S := S8192x128) hz, View.ld_unit_zero (S := S8192x64) hz]
  funext j
  exact block_eq m c t j

/-! ## The cover and the array after the run -/

/-- An index of the output array is in point `t`'s block iff each coordinate is in the block's range on its axis. -/
theorem mem_blk (t : Fin cfg0.N) (i : S262144x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_v4).slice (win0_2.rect t)).set ↔ _
  rw [View.set_slice_whole, Rect.mem_set_unit]
  exact Iff.rfl

/-- Every index of the output array is in the block of the point that takes its row: row `r` is in block `r / 8192`. -/
theorem cover (i : S262144x64.Idx) :
    ∃ t : Fin cfg0.N, (cfg0.win 2).flush t = true ∧ i ∈ ((cfg0.win 2).blk t).view.set := by
  have hi0 : (i 0).val < 262144 := (i 0).isLt
  have hi1 : (i 1).val < 64 := (i 1).isLt
  obtain ⟨t, ht⟩ := idx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 64 ≤ (i 1).val ∧ (i 1).val < win0_2.index t (1 : Fin 2) * 64 + 64
    omega

/-- THE OUTPUT ARRAY AFTER THE RUN is the whole-array function of the packed inputs as the region found them. -/
theorem final (c : Dev nD) :
    (dats m 0 c).arrAt 2 cfg0.N = packedClip (V m c main_v1) (V m c main_v3) :=
  (dats m 0 c).arrAt_eq_of_cover 2 _ (fun t _ => flushed_eq m c t) cover

end Cert.KernelIdeal.ClipBlocks

end
-- ==== Proof.ClipSpec.lean ====
/-
  The specification: a column of values clipped row by row between two bounds.

  `y` is a column of 16777216 values, `o` a two-column array whose row `n` holds the lower bound (column 0) and
  the upper bound (column 1) of element `n`. The result is the column with entry `n` equal to
  `min (o (n, 1)) (max (o (n, 0)) (y (n, 0)))`: first raised to the lower bound, then cut at the upper one. Both
  programs compute exactly this function of their two arguments.
-/
import Idealize.ShloMosaic.PureOps.Ideal
import Idealize.ShloMosaic.Lib.ValueIdx

noncomputable section

open Idealize.ShloMosaic Idealize.ShloMosaic.ValueIdx

namespace ClipSpec

/-- Entry `n` of the clipped column. -/
def clipRowAt (y : (⟨2, ![16777216, 1]⟩ : Shape).Idx → EReal) (o : (⟨2, ![16777216, 2]⟩ : Shape).Idx → EReal)
    (n : Fin 16777216) : EReal :=
  min (o (ix2 n (1 : Fin 2))) (max (o (ix2 n (0 : Fin 2))) (y (ix2 n (0 : Fin 1))))

/-- The clipped column. -/
def clipRows (y : (⟨2, ![16777216, 1]⟩ : Shape).Idx → EReal) (o : (⟨2, ![16777216, 2]⟩ : Shape).Idx → EReal) :
    (⟨2, ![16777216, 1]⟩ : Shape).Idx → EReal :=
  fun i => clipRowAt y o (i 0)

theorem clipRows_apply (y : (⟨2, ![16777216, 1]⟩ : Shape).Idx → EReal) (o : (⟨2, ![16777216, 2]⟩ : Shape).Idx → EReal)
    (n : Fin 16777216) (z : Fin 1) :
    clipRows y o (ix2 n z) = min (o (ix2 n (1 : Fin 2))) (max (o (ix2 n (0 : Fin 2))) (y (ix2 n (0 : Fin 1)))) := rfl

end ClipSpec

end
-- ==== Proof.LibReshape.lean ====
/-
  Two reshapes in a row read the entry with the same row-major position.

  A reshape keeps the row-major order of the elements and changes only how positions are grouped into coordinates.
  So reshaping to any intermediate shape and on to a final one — flattening a matrix and cutting the flat sequence
  into rows of another length, say — reads, at an index of the final shape, the operand's entry whose row-major
  position is the same; the intermediate shape plays no part. For two matrices the positions are
  `row · (row length) + column` on both sides.
-/
import Idealize.ShloMosaic.Lib.Pipeline.Value
import Idealize.ShloMosaic.Lib.ValueIdx

noncomputable section

open Idealize.ShloMosaic Idealize.ShloMosaic.ValueIdx

namespace ReshapeTwice

/-- A cast through any intermediate shape `u`, read at `j`, is the operand at the index `k` with `j`'s row-major
    position. -/
theorem apply {α : Type} {s u t : Shape} (x : s.Idx → α) (h1 : s.ShapeCasts u) (h2 : u.ShapeCasts t)
    (j : t.Idx) (k : s.Idx) (hk : (s.rowMajor k).val = (t.rowMajor j).val) :
    shapeCast t (shapeCast u x h1) h2 j = x k := by
  unfold shapeCast
  refine congrArg x ?_
  rw [Shape.reshapeEquiv_reshapeEquiv]
  exact Shape.reshapeEquiv_eq_of_rowMajor _ hk

/-- Matrix to matrix through any intermediate shape: entry `(b0, b1)` of the result is entry `(a0, a1)` of the
    operand when `a0 · A1 + a1 = b0 · B1 + b1`. -/
theorem apply_ix2 {α : Type} {A0 A1 B0 B1 : ℕ} {u : Shape} (x : (⟨2, ![A0, A1]⟩ : Shape).Idx → α)
    (h1 : (⟨2, ![A0, A1]⟩ : Shape).ShapeCasts u) (h2 : u.ShapeCasts (⟨2, ![B0, B1]⟩ : Shape))
    (a0 : Fin A0) (a1 : Fin A1) (b0 : Fin B0) (b1 : Fin B1)
    (h : a0.val * A1 + a1.val = b0.val * B1 + b1.val) :
    shapeCast (⟨2, ![B0, B1]⟩ : Shape) (shapeCast u x h1) h2 (ix2 b0 b1) = x (ix2 a0 a1) :=
  apply x h1 h2 (ix2 b0 b1) (ix2 a0 a1)
    ((Shape.rowMajor_val_two (ix2 a0 a1)).trans (h.trans (Shape.rowMajor_val_two (ix2 b0 b1)).symm))

end ReshapeTwice

end
-- ==== Proof.ClipHost.lean ====
/-
  The kernel program's result as one function of its two arguments.

  Around the region the program only re-lays arrays, keeping row-major order:
    the value column  [16777216, 1] → flat [16777216] → 262144 rows of 64   (entry (r, q) is value 64 r + q),
    the bounds        [16777216, 2] → flat [33554432] → 262144 rows of 128  (entry (r, k) has flat position 128 r + k,
                                                                              so it is bound k mod 2 of element 64 r + k / 2),
    the packed result  262144 rows of 64 → flat [16777216] → column [16777216, 1].
  Element n sits at row n / 64, column n mod 64 of the packed arrays; its lower bound is at position 2 (n mod 64)
  of that row of the packed bounds and its upper bound right after it. Composing the three re-layings with the
  region's whole-array function (ClipBlocks) gives the specification (ClipSpec) of the two arguments.
-/
import proofs.«122648_j40226663694894_1_alg».proof.Proof.ClipBlocks
import proofs.«122648_j40226663694894_1_alg».proof.Proof.ClipSpec
import proofs.«122648_j40226663694894_1_alg».proof.Proof.LibReshape
import Idealize.ShloMosaic.Lib.StableHlo.Run

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.ClipHost

open Cert.KernelIdeal Cert.KernelIdeal.Gen Cert.KernelIdeal.ClipBody Cert.KernelIdeal.ClipBlocks

/-! ## Packing, the region's function, unpacking: the specification -/

/-- The three re-layings composed with the packed clip, for ANY two argument arrays: the clipped column. -/
theorem unpack_clip (y : S16777216x1.Idx → EReal) (o : S16777216x2.Idx → EReal) :
    shapeCast S16777216x1 (shapeCast S16777216
        (packedClip
          (shapeCast S262144x64 (shapeCast S16777216 y shapeCasts_S16777216x1_S16777216) shapeCasts_S16777216_S262144x64)
          (shapeCast S262144x128 (shapeCast S33554432 o shapeCasts_S16777216x2_S33554432) shapeCasts_S33554432_S262144x128))
        shapeCasts_S262144x64_S16777216) shapeCasts_S16777216_S16777216x1
      = ClipSpec.clipRows y o := by
  funext i
  obtain ⟨n, z, rfl⟩ : ∃ (n : Fin 16777216) (z : Fin 1), i = ix2 n z := ⟨i 0, i 1, eq_ix2 i⟩
  have hn : n.val < 16777216 := n.isLt
  have hz : z.val = 0 := by have := z.isLt; omega
  -- element n sits at row n / 64, column n mod 64 of the packed arrays
  have hr : n.val / 64 < 262144 := by omega
  have hq : n.val % 64 < 64 := by omega
  rw [ReshapeTwice.apply_ix2 _ shapeCasts_S262144x64_S16777216 shapeCasts_S16777216_S16777216x1
      (⟨n.val / 64, hr⟩ : Fin 262144) (⟨n.val % 64, hq⟩ : Fin 64) n z
      (by show n.val / 64 * 64 + n.val % 64 = n.val * 1 + z.val; omega),
    packedClip_apply,
    ReshapeTwice.apply_ix2 o shapeCasts_S16777216x2_S33554432 shapeCasts_S33554432_S262144x128
      n (1 : Fin 2) (⟨n.val / 64, hr⟩ : Fin 262144) (upperPos ⟨n.val % 64, hq⟩)
      (by show n.val * 2 + 1 = n.val / 64 * 128 + (2 * (n.val % 64) + 1); omega),
    ReshapeTwice.apply_ix2 o shapeCasts_S16777216x2_S33554432 shapeCasts_S33554432_S262144x128
      n (0 : Fin 2) (⟨n.val / 64, hr⟩ : Fin 262144) (lowerPos ⟨n.val % 64, hq⟩)
      (by show n.val * 2 + 0 = n.val / 64 * 128 + 2 * (n.val % 64); omega),
    ReshapeTwice.apply_ix2 y shapeCasts_S16777216x1_S16777216 shapeCasts_S16777216_S262144x64
      n (0 : Fin 1) (⟨n.val / 64, hr⟩ : Fin 262144) (⟨n.val % 64, hq⟩ : Fin 64)
      (by show n.val * 1 + 0 = n.val / 64 * 64 + n.val % 64; omega)]
  exact (ClipSpec.clipRows_apply y o n z).symm

/-! ## The host operations around the region -/

variable (m : (ℓ : Loc nD τ sig) → Buf (Elt Ideal) ℓ) (ρ : Dev nD → PrngReg)

/-- The region finds the packed values: the first argument flattened and cut into rows of 64. -/
theorem V_packed_values (c : Dev nD) :
    (V m c main_v1 : S262144x64.Idx → EReal)
      = shapeCast S262144x64 (shapeCast S16777216 (m ((c : Thread nD τ).loc main_arg0) : S16777216x1.Idx → EReal)
          shapeCasts_S16777216x1_S16777216) shapeCasts_S16777216_S262144x64 := by
  show StableHlo.after hostOps0 (fun b => m (c, b)) (Proc.devRef .tc main_v1) = _
  after_results
  rfl

/-- The region finds the packed bounds: the second argument flattened and cut into rows of 128. -/
theorem V_packed_bounds (c : Dev nD) :
    (V m c main_v3 : S262144x128.Idx → EReal)
      = shapeCast S262144x128 (shapeCast S33554432 (m ((c : Thread nD τ).loc main_arg1) : S16777216x2.Idx → EReal)
          shapeCasts_S16777216x2_S33554432) shapeCasts_S33554432_S262144x128 := by
  show StableHlo.after hostOps0 (fun b => m (c, b)) (Proc.devRef .tc main_v3) = _
  after_results
  rfl

/-- The program's result: the region's output array, as the run leaves it, flattened and stood up as a column. -/
theorem tail_eq (c : Dev nD) :
    (Pipeline.afterTail₀ cfgs (dats m) 0 (V0 m) [hostOps1] c main_v6 : S16777216x1.Idx → EReal)
      = shapeCast S16777216x1 (shapeCast S16777216 ((dats m 0 c).arrAt 2 cfg0.N : S262144x64.Idx → EReal)
          shapeCasts_S262144x64_S16777216) shapeCasts_S16777216_S16777216x1 := by
  unfold Pipeline.afterTail₀
  show StableHlo.after hostOps1 _ (Proc.devRef .tc main_v6) = _
  after_results
  rw [show Pipeline.withArrays (cfgs 0).spec c (V0 m c) (fun w => (dats m 0 c).arrAt w (cfgs 0).N)
        (Proc.devRef .tc main_v4) = (dats m 0 c).arrAt 2 cfg0.N from
      Pipeline.withArrays_arr spec0 winFacts0.arr_inj c (V0 m c) (fun w => (dats m 0 c).arrAt w cfg0.N) 2]
  rfl

/-- THE KERNEL PROGRAM'S RESULT is the specification of its two arguments as launched. -/
theorem result_eq (c : Dev nD) :
    (Pipeline.afterTail₀ cfgs (dats m) 0 (V0 m) [hostOps1] c main_v6 : S16777216x1.Idx → EReal)
      = ClipSpec.clipRows (m ((c : Thread nD τ).loc main_arg0)) (m ((c : Thread nD τ).loc main_arg1)) := by
  rw [tail_eq, ClipBlocks.final, V_packed_values, V_packed_bounds]
  exact unpack_clip _ _

/-- The run, read: every weakly fair execution terminates with the result array at the specification of the
    arguments, and the arguments as launched. -/
theorem run : θ_run defs (onTc (τ := τ) (main (F := Ideal))) ⟨m, fun _ => 0, ρ⟩ fun r => ∀ c : Dev nD,
      r.2.mem ((c : Thread nD τ).loc main_v6)
        = ClipSpec.clipRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v6 (Pipeline.mem_restRefs_of main_v6 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.ClipHost

end
-- ==== Proof.ClipReference.lean ====
/-
  The reference program's result is the specification.

  The reference slices the bounds array into its two columns and clips: `min upper (max lower y)`, entry by entry.
  Entry `n` of the lower-bound column is the bounds array's entry `(n, 0)`, of the upper-bound column its entry
  `(n, 1)`; so the reference's result at `n` is the specification's (ClipSpec), with no arithmetic in between.
-/
import proofs.«122648_j40226663694894_1_alg».proof.Proof.Gen.ReferenceIdeal.Read
import proofs.«122648_j40226663694894_1_alg».proof.Proof.ClipSpec

noncomputable section

open Idealize.ShloMosaic Idealize.ShloMosaic.ValueIdx

namespace Cert.ReferenceIdeal.ClipRef

open Cert.ReferenceIdeal Cert.ReferenceIdeal.Read

/-- The reference's last stage, as a function of the two arguments, is the clipped column. -/
theorem result_eq (y : S16777216x1.Idx → EReal) (o : S16777216x2.Idx → EReal) :
    val_main_v2 (F := Ideal) y o = ClipSpec.clipRows y o := by
  funext i
  obtain ⟨n, z, rfl⟩ : ∃ (n : Fin 16777216) (z : Fin 1), i = ix2 n z := ⟨i 0, i 1, eq_ix2 i⟩
  obtain rfl : z = (0 : Fin 1) := Fin.ext (by have := z.isLt; omega)
  have e0 : idx_main_v0 (ix2 n (0 : Fin 1)) = ix2 n (0 : Fin 2) :=
    funext fun a => Fin.ext (by match a with | ⟨0, _⟩ => rfl | ⟨1, _⟩ => rfl)
  have e1 : idx_main_v1 (ix2 n (0 : Fin 1)) = ix2 n (1 : Fin 2) :=
    funext fun a => Fin.ext (by match a with | ⟨0, _⟩ => rfl | ⟨1, _⟩ => rfl)
  rw [val_main_v2_apply, val_main_call0_v0_apply, val_main_v1_apply, val_main_v0_apply, e0, e1]
  exact (ClipSpec.clipRows_apply y o n 0).symm

end Cert.ReferenceIdeal.ClipRef

end
-- ==== Proof.lean ====
/-
  A column of 16777216 values clipped, element by element, between a lower and an upper bound: the kernel program
  and the reference compute the same function of their two arguments over the extended reals.

  The specification (Proof/ClipSpec.lean): entry `n` of the result is `min (o (n, 1)) (max (o (n, 0)) (y (n, 0)))`,
  `y` the value column and `o` the two-column array of bounds.

  The reference slices `o` into its two columns and applies `max` then `min`: the specification read off directly
  (Proof/ClipReference.lean, over the reference's run and its stages read at an index).

  The kernel program re-lays `y` as 262144 rows of 64 and `o` as 262144 rows of 128 — row `r` of the bounds then
  holds the lower and upper bounds of the 64 elements of row `r` of the values, interleaved — and runs a grid of 32
  points, each on 8192 rows. The body separates the bounds by two products with constant 128 × 64 matrices of zeros
  and ones and clips. Over the extended reals a product with a column that is one at a single position and zero
  elsewhere is a sum with one surviving term, because `x · 0 = 0` and `x · 1 = x` for every `x`, infinite or not
  (Proof/LibSelectColumn.lean, Proof/LibMatmul.lean); so the body's entry `(p, q)` is the value clipped between
  entries `2 q` and `2 q + 1` of its row of bounds (Proof/ClipBody.lean). What each point writes back is a block of
  one whole-array function of the packed arrays, and the 32 blocks cover the packed output
  (Proof/ClipBlocks.lean). The re-layings before and after the region keep row-major order
  (Proof/LibReshape.lean): element `n` sits at row `n / 64`, column `n mod 64`, its two bounds at flat positions
  `2 n` and `2 n + 1`, which are positions `2 (n mod 64)` and `2 (n mod 64) + 1` of row `n / 64`. Composed, the
  program's result is the specification of its arguments (Proof/ClipHost.lean).

  No law used here needs the inputs finite: the precondition is never opened. The three frames are the two
  generated frame theorems and the reference's run with its result dropped; the kernel's idealization rewrote no
  operation, so there is nothing to preserve.
-/
import proofs.«122648_j40226663694894_1_alg».proof.Defs
import proofs.«122648_j40226663694894_1_alg».proof.Proof.Gen.Kernel
import proofs.«122648_j40226663694894_1_alg».proof.Proof.Gen.Kernel.Skeleton
import proofs.«122648_j40226663694894_1_alg».proof.Proof.Gen.Kernel.Launch
import proofs.«122648_j40226663694894_1_alg».proof.Proof.Gen.Kernel.Points
import proofs.«122648_j40226663694894_1_alg».proof.Proof.Gen.Kernel.Frame
import proofs.«122648_j40226663694894_1_alg».proof.Proof.Gen.KernelIdeal
import proofs.«122648_j40226663694894_1_alg».proof.Proof.Gen.KernelIdeal.Skeleton
import proofs.«122648_j40226663694894_1_alg».proof.Proof.Gen.KernelIdeal.Launch
import proofs.«122648_j40226663694894_1_alg».proof.Proof.Gen.KernelIdeal.Points
import proofs.«122648_j40226663694894_1_alg».proof.Proof.Gen.KernelIdeal.Frame
import proofs.«122648_j40226663694894_1_alg».proof.Proof.Gen.ReferenceIdeal
import proofs.«122648_j40226663694894_1_alg».proof.Proof.Gen.ReferenceIdeal.Run
import proofs.«122648_j40226663694894_1_alg».proof.Proof.Gen.ReferenceIdeal.Read
import proofs.«122648_j40226663694894_1_alg».proof.Proof.Gen.Pre_finite_inputs
import proofs.«122648_j40226663694894_1_alg».proof.Proof.ClipHost
import proofs.«122648_j40226663694894_1_alg».proof.Proof.ClipReference
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the clipped column of those arguments. -/
theorem algebraic : Cert.algebraic_KernelIdeal_ReferenceIdeal := by
  intro m ρ m' ρ' _ hagree
  refine ⟨_, Cert.KernelIdeal.ClipHost.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.ClipRef.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
